-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v64_0)) (v2 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v64_0) = v1 c
          ∧ r.2.mem ((c.tc : Thread Cert.KernelIdeal.nD Cert.KernelIdeal.τ).loc Cert.KernelIdeal.main_v64_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1024 : Shape := ⟨2, ![100000, 1024]⟩
abbrev S100000x384 : Shape := ⟨2, ![100000, 384]⟩
abbrev S64x1024 : Shape := ⟨2, ![64, 1024]⟩
abbrev S64 : Shape := ⟨1, ![64]⟩
abbrev S64x384 : Shape := ⟨2, ![64, 384]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S100000x384 : S_.BroadcastsInDim S100000x384 (![] : Fin 0 → Fin S100000x384.rank)
  reducesTo_S100000x384_S_d0_1 : S100000x384.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S64x384 : S_.BroadcastsInDim S64x384 (![] : Fin 0 → Fin S64x384.rank)
  reducesTo_S64x384_S_d0_1 : S64x384.ReducesTo [0, 1] S_

variable [Facts]

def fn_part1 {F : FTy → Type} [FloatOps F] (main_arg4 : FVec F S64 .f32) (main_arg5 : FVec F S64x384 .f32) (main_arg6 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x384 .f32 := Host.absf main_arg5
  let main_cst_8 : FVec F S_ .f32 := constant S_ .f32 0x7F800000#32
  let main_v25 : FVec F S64x384 .f32 := broadcastInDim S64x384 ![] bcast_S_S64x384 main_cst_8
  let main_v26 : IVec S64x384 1 := cmpf .olt main_v24 main_v25
  let main_c_9 : IVec S_ 1 := constantI S_ 1 1#1
  let main_v27 : IVec S_ 1 := (fun x v => Host.reduce IntOp.andi x v reducesTo_S64x384_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S100000x1024 .f32) (main_arg2 : FVec F S100000x384 .f32) (main_arg3 : FVec F S64x1024 .f32) (main_arg4 : FVec F S64 .f32) (main_arg5 : FVec F S64x384 .f32) (main_arg6 : FVec F S64 .f32) (main_arg7 : IVec S1000000 32) (main_arg8 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S100000x384 .f32 := Host.absf main_arg2
  let main_cst_2 : FVec F S_ .f32 := constant S_ .f32 0x7F800000#32
  let main_v10 : FVec F S100000x384 .f32 := broadcastInDim S100000x384 ![] bcast_S_S100000x384 main_cst_2
  let main_v11 : IVec S100000x384 1 := cmpf .olt main_v9 main_v10
  let main_c_3 : IVec S_ 1 := constantI S_ 1 1#1
  let main_v12 : IVec S_ 1 := (fun x v => Host.reduce IntOp.andi x v reducesTo_S100000x384_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S100000x64 : Shape := ⟨2, ![100000, 64]⟩
abbrev S100000x1024 : Shape := ⟨2, ![100000, 1024]⟩
abbrev S100000x384 : Shape := ⟨2, ![100000, 384]⟩
abbrev S64x1024 : Shape := ⟨2, ![64, 1024]⟩
abbrev S64 : Shape := ⟨1, ![64]⟩
abbrev S64x384 : Shape := ⟨2, ![64, 384]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S1x64 : Shape := ⟨2, ![1, 64]⟩
abbrev S2000x1024 : Shape := ⟨2, ![2000, 1024]⟩
abbrev S2000x384 : Shape := ⟨2, ![2000, 384]⟩
abbrev S2000x64 : Shape := ⟨2, ![2000, 64]⟩
abbrev S1024x64 : Shape := ⟨2, ![1024, 64]⟩
abbrev S384x64 : Shape := ⟨2, ![384, 64]⟩

abbrev nBuf : Space → Nat
  | .hbm => 92
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S100000x1024, .f32⟩
  | .hbm, ⟨2, _⟩ => ⟨S100000x384, .f32⟩
  | .hbm, ⟨3, _⟩ => ⟨S64x1024, .f32⟩
  | .hbm, ⟨4, _⟩ => ⟨S64, .f32⟩
  | .hbm, ⟨5, _⟩ => ⟨S64x384, .f32⟩
  | .hbm, ⟨6, _⟩ => ⟨S64, .f32⟩
  | .hbm, ⟨7, _⟩ => ⟨S1000000, .i32⟩
  | .hbm, ⟨8, _⟩ => ⟨S1000000, .i32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S1000000, .f32⟩
  | .hbm, ⟨40, _⟩ => ⟨S1000000x1, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S1000000x1, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S_, .f32⟩
  | .hbm, ⟨69, _⟩ => ⟨S100000x64, .f32⟩
  | .hbm, ⟨70, _⟩ => ⟨S1000000x1, .i32⟩
  | .hbm, ⟨71, _⟩ => ⟨S100000x64, .f32⟩
  | .hbm, ⟨72, _⟩ => ⟨S1000000x1, .f32⟩
  | .hbm, ⟨73, _⟩ => ⟨S_, .i32⟩
  | .hbm, ⟨74, _⟩ => ⟨S1000000, .i32⟩
  | .hbm, ⟨75, _⟩ => ⟨S1000000, .i1⟩
  | .hbm, ⟨76, _⟩ => ⟨S_, .i32⟩
  | .hbm, ⟨77, _⟩ => ⟨S1000000, .i32⟩
  | .hbm, ⟨78, _⟩ => ⟨S1000000, .i32⟩
  | .hbm, ⟨79, _⟩ => ⟨S1000000, .i32⟩
  | .hbm, ⟨80, _⟩ => ⟨S1000000x1, .i32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S100000x64, .f32⟩
  | .hbm, ⟨86, _⟩ => ⟨S1000000x1, .i32⟩
  | .hbm, ⟨87, _⟩ => ⟨S100000x64, .f32⟩
  | .hbm, ⟨88, _⟩ => ⟨S1x64, .f32⟩
  | .hbm, ⟨89, _⟩ => ⟨S1x64, .f32⟩
  | .hbm, ⟨90, _⟩ => ⟨S100000x64, .f32⟩
  | .hbm, ⟨91, _⟩ => ⟨S100000x64, .f32⟩
  | .local _ .vmem, ⟨0, _⟩ => ⟨S2000x1024, .f32⟩
  | .local _ .vmem, ⟨1, _⟩ => ⟨S2000x1024, .f32⟩
  | .local _ .vmem, ⟨2, _⟩ => ⟨S2000x384, .f32⟩
  | .local _ .vmem, ⟨3, _⟩ => ⟨S2000x384, .f32⟩
  | .local _ .vmem, ⟨4, _⟩ => ⟨S64x1024, .f32⟩
  | .local _ .vmem, ⟨5, _⟩ => ⟨S1x64, .f32⟩
  | .local _ .vmem, ⟨6, _⟩ => ⟨S64x384, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_c_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S2000x384_S2000x384_0_0 : ∀ a, (![0, 0] : Fin 2 → Nat) a + S2000x384.size a ≤ S2000x384.size a
  h_S2000x384 : 0 < S2000x384.numel
  inb_S64x384_S64x384_0_0 : ∀ a, (![0, 0] : Fin 2 → Nat) a + S64x384.size a ≤ S64x384.size a
  h_S64x384 : 0 < S64x384.numel
  transposes_S64x384_p1_0_S384x64 : S64x384.Transposes [1, 0] S384x64
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x1024_S1024x64_S2000x64_1_0_0_1_n_n_wf : DotDims.WF S2000x1024 S1024x64 S2000x64 [1] [0] [0] [1] [] []
  dot_S2000x384_S384x64_S2000x64_1_0_0_1_n_n_wf : DotDims.WF S2000x384 S384x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x384.size a ≤ S100000x384.size a
  hwx0_1 : ∀ i : grid0.Coords, EltTy.bits .f32 = 32 ∨ (Rect.block (s := S100000x384) S2000x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x384.size a ≤ S64x384.size a
  hwx0_4 : ∀ i : grid0.Coords, EltTy.bits .f32 = 32 ∨ (Rect.block (s := S64x384) S64x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf

abbrev win0_0 : Pipeline.Window sig grid0 :=
  Pipeline.Window.ofSpec (Memref.whole main_arg1) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v63) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v64_0) S2000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v64_1) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x1024 : Shape := ⟨2, ![100000, 1024]⟩
abbrev S100000x384 : Shape := ⟨2, ![100000, 384]⟩
abbrev S64x1024 : Shape := ⟨2, ![64, 1024]⟩
abbrev S64 : Shape := ⟨1, ![64]⟩
abbrev S64x384 : Shape := ⟨2, ![64, 384]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S1024x64 : Shape := ⟨2, ![1024, 64]⟩
abbrev S1x64 : Shape := ⟨2, ![1, 64]⟩
abbrev S384x64 : Shape := ⟨2, ![384, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x1024, .f32⟩
  | .hbm, ⟨2, _⟩ => ⟨S100000x384, .f32⟩
  | .hbm, ⟨3, _⟩ => ⟨S64x1024, .f32⟩
  | .hbm, ⟨4, _⟩ => ⟨S64, .f32⟩
  | .hbm, ⟨5, _⟩ => ⟨S64x384, .f32⟩
  | .hbm, ⟨6, _⟩ => ⟨S64, .f32⟩
  | .hbm, ⟨7, _⟩ => ⟨S1000000, .i32⟩
  | .hbm, ⟨8, _⟩ => ⟨S1000000, .i32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S1000000, .f32⟩
  | .hbm, ⟨40, _⟩ => ⟨S1000000x1, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S1000000x1, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S_, .f32⟩
  | .hbm, ⟨69, _⟩ => ⟨S100000x64, .f32⟩
  | .hbm, ⟨70, _⟩ => ⟨S1000000x1, .i32⟩
  | .hbm, ⟨71, _⟩ => ⟨S100000x64, .f32⟩
  | .hbm, ⟨72, _⟩ => ⟨S1000000x1, .f32⟩
  | .hbm, ⟨73, _⟩ => ⟨S_, .i32⟩
  | .hbm, ⟨74, _⟩ => ⟨S1000000, .i32⟩
  | .hbm, ⟨75, _⟩ => ⟨S1000000, .i1⟩
  | .hbm, ⟨76, _⟩ => ⟨S_, .i32⟩
  | .hbm, ⟨77, _⟩ => ⟨S1000000, .i32⟩
  | .hbm, ⟨78, _⟩ => ⟨S1000000, .i32⟩
  | .hbm, ⟨79, _⟩ => ⟨S1000000, .i32⟩
  | .hbm, ⟨80, _⟩ => ⟨S1000000x1, .i32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S100000x64, .f32⟩
  | .hbm, ⟨86, _⟩ => ⟨S1000000x1, .i32⟩
  | .hbm, ⟨87, _⟩ => ⟨S100000x64, .f32⟩
  | .hbm, ⟨88, _⟩ => ⟨S1024x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S384x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_c_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  transposes_S64x1024_S1024x64_1_0 : S64x1024.Transposes [1, 0] S1024x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x384_S384x64_1_0 : S64x384.Transposes [1, 0] S384x64
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x1024_S1024x64_S100000x64_1_0_0_1_n_n_wf : DotDims.WF S100000x1024 S1024x64 S100000x64 [1] [0] [0] [1] [] []
  dot_S100000x384_S384x64_S100000x64_1_0_0_1_n_n_wf : DotDims.WF S100000x384 S384x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf

class Facts : Prop extends Facts₀ where

variable [Facts]
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Spec.lean ====
/-
  A linear layer read at one entry.

  For a matrix of rows `x` of shape [n, k], a weight matrix `w` of shape [d, k] (one row per output feature) and a bias
  `b` of shape [d], the layer `x · wᵀ + b` has at entry (p, q) the inner product of row p of `x` with row q of `w`, plus
  `b[q]`. Over the extended reals this is stated as one function of the three arrays, index by index. Both programs of
  this certificate compute exactly this sum at every entry (each in its own arrangement of blocks, transposes and
  broadcasts), so no law of arithmetic beyond the definition is needed, and none that asks for finiteness.
-/
import Idealize.ShloMosaic.PureOps.Ideal
import Idealize.ShloMosaic.Lib.ValueIdx

noncomputable section

namespace Cert.Spec

open Idealize.ShloMosaic Idealize.ShloMosaic.ValueIdx

/-- The linear layer `x · wᵀ + b`: entry (p, q) is the sum over j of `x[p, j] · w[q, j]`, plus `b[q]`. -/
def linear {n k d : ℕ} (x : (⟨2, ![n, k]⟩ : Shape).Idx → EReal) (w : (⟨2, ![d, k]⟩ : Shape).Idx → EReal)
    (b : (⟨1, ![d]⟩ : Shape).Idx → EReal) : (⟨2, ![n, d]⟩ : Shape).Idx → EReal :=
  fun i => (∑ j : Fin k, x (ix2 (i 0) j) * w (ix2 (i 1) j)) + b (ix1 (i 1))

/-- The layer at an entry given by its two coordinates. -/
theorem linear_apply {n k d : ℕ} (x : (⟨2, ![n, k]⟩ : Shape).Idx → EReal) (w : (⟨2, ![d, k]⟩ : Shape).Idx → EReal)
    (b : (⟨1, ![d]⟩ : Shape).Idx → EReal) (p : Fin n) (q : Fin d) :
    linear x w b (ix2 p q) = (∑ j : Fin k, x (ix2 p j) * w (ix2 q j)) + b (ix1 q) := rfl

end Cert.Spec

end
-- ==== Proof.BodyEntry.lean ====
/-
  What the kernel body stores, read at one entry.

  At every grid point the body multiplies its block of feature rows (rounded to bf16, which at the exact reading of
  floats changes nothing) by the transposed weight matrix, into a zero accumulator, and adds the bias row broadcast over
  the block's rows. Read at entry (p, q) of the stored block that is the sum over j of `rows[p, j] · weights[q, j]`
  plus `bias[0, q]`: the matrix unit's product is a plain sum at the exact reading, the transposed weights at (j, q) are
  the weights at (q, j), and the broadcast row at (p, q) is the bias at (0, q). The same holds for both projectors,
  which differ only in the contraction length (1024 and 384).
-/
import proofs.«139117_j45595372814493_1_alg».proof.Proof.Gen.KernelIdeal.Skeleton
import proofs.«139117_j45595372814493_1_alg».proof.Proof.LibPlainContract
import proofs.«139117_j45595372814493_1_alg».proof.Proof.Spec
import Idealize.ShloMosaic.Lib.ValueLayout
import Idealize.ShloMosaic.Lib.ValueIdx
import Idealize.ShloMosaic.Lib.Pipeline.Value

noncomputable section

namespace Cert.KernelIdeal.BodyEntry

open Cert.KernelIdeal Cert.KernelIdeal.Gen Idealize.ShloMosaic Idealize.ShloMosaic.ValueIdx

/-- The visual projector's stored value at entry (p, q) of a block. -/
theorem visual_apply (rows : FVec Ideal S2000x1024 .f32) (weights : FVec Ideal S64x1024 .f32) (bias : FVec Ideal S1x64 .f32)
    (p : Fin 2000) (q : Fin 64) :
    k0_pay1 (F := Ideal) rows weights bias (ix2 p q)
      = (∑ j : Fin 1024, rows (ix2 p j) * weights (ix2 q j)) + bias (ix2 (0 : Fin 1) q) := by
  unfold k0_pay1
  refine congrArg₂ (· + ·) ?_ ?_
  · refine (Cert.LibPlainContract.matmul_plain_apply 2000 1024 64 none _ _ p q).trans ?_
    exact Finset.sum_congr rfl fun j _ => congrArg (rows (ix2 p j) * ·) (transpose_ix2_apply _ _ j q)
  · exact (broadcastTo_1b_ab_apply _ _ p q).trans (congrFun (shapeCast_self bias _) _)

/-- The text projector's stored value at entry (p, q) of a block. -/
theorem text_apply (rows : FVec Ideal S2000x384 .f32) (weights : FVec Ideal S64x384 .f32) (bias : FVec Ideal S1x64 .f32)
    (p : Fin 2000) (q : Fin 64) :
    k0_pay2 (F := Ideal) rows weights bias (ix2 p q)
      = (∑ j : Fin 384, rows (ix2 p j) * weights (ix2 q j)) + bias (ix2 (0 : Fin 1) q) := by
  unfold k0_pay2
  refine congrArg₂ (· + ·) ?_ ?_
  · refine (Cert.LibPlainContract.matmul_plain_apply 2000 384 64 none _ _ p q).trans ?_
    exact Finset.sum_congr rfl fun j _ => congrArg (rows (ix2 p j) * ·) (transpose_ix2_apply _ _ j q)
  · exact (broadcastTo_1b_ab_apply _ _ p q).trans (congrFun (shapeCast_self bias _) _)

/-- A block entry against the whole layer: if the block's row p is row P of the feature array, the block's weights and bias
    row are the layer's, then what the body stores at (p, q) is the visual layer's entry (P, q). -/
theorem visual_point (rows : FVec Ideal S2000x1024 .f32) (weights : FVec Ideal S64x1024 .f32) (bias : FVec Ideal S1x64 .f32)
    (X : FVec Ideal S100000x1024 .f32) (W : FVec Ideal S64x1024 .f32) (b : FVec Ideal S64 .f32)
    (y : S2000x64.Idx) (i : S100000x64.Idx) (p : Fin 2000) (q : Fin 64) (P : Fin 100000)
    (hy : y = ix2 p q) (hi : i = ix2 P q)
    (hrows : ∀ j : Fin 1024, rows (ix2 p j) = X (ix2 P j)) (hweights : ∀ a, weights a = W a)
    (hbias : bias (ix2 (0 : Fin 1) q) = b (ix1 q)) :
    k0_pay1 (F := Ideal) rows weights bias y = Cert.Spec.linear (n := 100000) (k := 1024) (d := 64) X W b i := by
  subst hy hi
  rw [visual_apply, Cert.Spec.linear_apply, hbias]
  exact congrArg (· + b (ix1 q)) (Finset.sum_congr rfl fun j _ => by rw [hrows j, hweights])

/-- The same for the text layer. -/
theorem text_point (rows : FVec Ideal S2000x384 .f32) (weights : FVec Ideal S64x384 .f32) (bias : FVec Ideal S1x64 .f32)
    (X : FVec Ideal S100000x384 .f32) (W : FVec Ideal S64x384 .f32) (b : FVec Ideal S64 .f32)
    (y : S2000x64.Idx) (i : S100000x64.Idx) (p : Fin 2000) (q : Fin 64) (P : Fin 100000)
    (hy : y = ix2 p q) (hi : i = ix2 P q)
    (hrows : ∀ j : Fin 384, rows (ix2 p j) = X (ix2 P j)) (hweights : ∀ a, weights a = W a)
    (hbias : bias (ix2 (0 : Fin 1) q) = b (ix1 q)) :
    k0_pay2 (F := Ideal) rows weights bias y = Cert.Spec.linear (n := 100000) (k := 384) (d := 64) X W b i := by
  subst hy hi
  rw [text_apply, Cert.Spec.linear_apply, hbias]
  exact congrArg (· + b (ix1 q)) (Finset.sum_congr rfl fun j _ => by rw [hrows j, hweights])

end Cert.KernelIdeal.BodyEntry

end
-- ==== Proof.KernelArrays.lean ====
/-
  The two projector arrays after the kernel's run.

  The grid has 50 points; point t stages rows 2000·t … 2000·t + 1999 of each feature array, the whole weight matrices
  and the two bias rows (each bias vector recast on the host as one row of 64), and writes back rows 2000·t … of each
  result. So what point t writes back is block t of the linear layer of the whole arrays: entry (p, q) of the stored
  block is the layer's entry (2000·t + p, q). The 50 blocks tile the 100000 result rows (row r lies in block r / 2000),
  hence each result array ends as the whole layer.
-/
import proofs.«139117_j45595372814493_1_alg».proof.Proof.Gen.KernelIdeal.Value
import proofs.«139117_j45595372814493_1_alg».proof.Proof.BodyEntry
import Idealize.ShloMosaic.Lib.Pipeline.Value
import Idealize.ShloMosaic.Lib.ValueLayout
import Idealize.ShloMosaic.Lib.StableHlo.Run
import Idealize.ShloMosaic.PureOps.Ideal

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature and result windows sit at block row t, block column 0; the weight
    and bias windows always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The host's two bias rows -/

/-- Before the region the host recasts the visual bias vector as one row. -/
theorem visual_bias_row (c : Dev nD) :
    (V m c main_v62 : S1x64.Idx → EReal) = shapeCast S1x64 (m ((c : Thread nD τ).loc main_arg4)) Facts₀.shapeCasts_S64_S1x64 := by
  dsimp only [Gen.V, Gen.hostOps0]
  after_results_simp
  rfl

/-- And the text bias vector likewise. -/
theorem text_bias_row (c : Dev nD) :
    (V m c main_v63 : S1x64.Idx → EReal) = shapeCast S1x64 (m ((c : Thread nD τ).loc main_arg6)) Facts₀.shapeCasts_S64_S1x64 := by
  dsimp only [Gen.V, Gen.hostOps0]
  after_results_simp
  rfl

/-! ## Each input window's block at a point, read off the argument arrays -/

/-- The visual feature block at point t is rows 2000·t … of the visual features. -/
theorem visual_rows (c : Dev nD) (t : Fin cfg0.N) (a : S2000x1024.Idx) (A : S100000x1024.Idx)
    (h0 : (A 0).val = t.val * 2000 + (a 0).val) (h1 : (A 1).val = (a 1).val) :
    iblk m c 0 t a = m ((c : Thread nD τ).loc main_arg1) A := by
  obtain ⟨e0, e1, -⟩ := idx_facts t
  have h : iblk m c 0 t a = V m c main_arg1 A := by
    show V m c main_arg1 (((cfg0.win 0).blk t).view.emb a) = V m c main_arg1 A
    have hA : ((cfg0.win 0).blk t).view.emb a = A := funext fun d => Fin.ext (by
      match d with
      | ⟨0, _⟩ => show win0_0.index t (0 : Fin 2) * 2000 + 1 * (a 0).val = (A 0).val; omega
      | ⟨1, _⟩ => show win0_0.index t (1 : Fin 2) * 1024 + 1 * (a 1).val = (A 1).val; omega)
    rw [hA]
  rw [h, V_main_arg1]

/-- The text feature block at point t is rows 2000·t … of the text features. -/
theorem text_rows (c : Dev nD) (t : Fin cfg0.N) (a : S2000x384.Idx) (A : S100000x384.Idx)
    (h0 : (A 0).val = t.val * 2000 + (a 0).val) (h1 : (A 1).val = (a 1).val) :
    iblk m c 1 t a = m ((c : Thread nD τ).loc main_arg2) A := by
  obtain ⟨-, -, e0, e1, -⟩ := idx_facts t
  have h : iblk m c 1 t a = V m c main_arg2 A := by
    show V m c main_arg2 (((cfg0.win 1).blk t).view.emb a) = V m c main_arg2 A
    have hA : ((cfg0.win 1).blk t).view.emb a = A := funext fun d => Fin.ext (by
      match d with
      | ⟨0, _⟩ => show win0_1.index t (0 : Fin 2) * 2000 + 1 * (a 0).val = (A 0).val; omega
      | ⟨1, _⟩ => show win0_1.index t (1 : Fin 2) * 384 + 1 * (a 1).val = (A 1).val; omega)
    rw [hA]
  rw [h, V_main_arg2]

/-- The visual weight block at every point is the whole weight matrix. -/
theorem visual_weights (c : Dev nD) (t : Fin cfg0.N) (a : S64x1024.Idx) :
    iblk m c 2 t a = m ((c : Thread nD τ).loc main_arg3) a := by
  obtain ⟨-, -, -, -, e0, e1, -⟩ := idx_facts t
  have h : iblk m c 2 t a = V m c main_arg3 a := by
    show V m c main_arg3 (((cfg0.win 2).blk t).view.emb a) = V m c main_arg3 a
    have hA : ((cfg0.win 2).blk t).view.emb a = a := funext fun d => Fin.ext (by
      match d with
      | ⟨0, _⟩ => show win0_2.index t (0 : Fin 2) * 64 + 1 * (a 0).val = (a 0).val; omega
      | ⟨1, _⟩ => show win0_2.index t (1 : Fin 2) * 1024 + 1 * (a 1).val = (a 1).val; omega)
    rw [hA]
  rw [h, V_main_arg3]

/-- The text weight block at every point is the whole weight matrix. -/
theorem text_weights (c : Dev nD) (t : Fin cfg0.N) (a : S64x384.Idx) :
    iblk m c 4 t a = m ((c : Thread nD τ).loc main_arg5) a := by
  obtain ⟨-, -, -, -, -, -, -, -, e0, e1, -⟩ := idx_facts t
  have h : iblk m c 4 t a = V m c main_arg5 a := by
    show V m c main_arg5 (((cfg0.win 4).blk t).view.emb a) = V m c main_arg5 a
    have hA : ((cfg0.win 4).blk t).view.emb a = a := funext fun d => Fin.ext (by
      match d with
      | ⟨0, _⟩ => show win0_4.index t (0 : Fin 2) * 64 + 1 * (a 0).val = (a 0).val; omega
      | ⟨1, _⟩ => show win0_4.index t (1 : Fin 2) * 384 + 1 * (a 1).val = (a 1).val; omega)
    rw [hA]
  rw [h, V_main_arg5]

/-- The visual bias block at every point is the one bias row: at (0, q) it holds the bias vector's entry q. -/
theorem visual_bias (c : Dev nD) (t : Fin cfg0.N) (q : Fin 64) :
    iblk m c 3 t (ix2 (0 : Fin 1) q) = m ((c : Thread nD τ).loc main_arg4) (ix1 q) := by
  obtain ⟨-, -, -, -, -, -, e0, e1, -⟩ := idx_facts t
  have h : iblk m c 3 t (ix2 (0 : Fin 1) q) = V m c main_v62 (ix2 (0 : Fin 1) q) := by
    show V m c main_v62 (((cfg0.win 3).blk t).view.emb (ix2 (0 : Fin 1) q)) = V m c main_v62 (ix2 (0 : Fin 1) q)
    have hA : ((cfg0.win 3).blk t).view.emb (ix2 (0 : Fin 1) q) = ix2 (0 : Fin 1) q := funext fun d => Fin.ext (by
      match d with
      | ⟨0, _⟩ => show win0_3.index t (0 : Fin 2) * 1 + 1 * 0 = 0; omega
      | ⟨1, _⟩ => show win0_3.index t (1 : Fin 2) * 64 + 1 * q.val = q.val; omega)
    rw [hA]
  rw [h, visual_bias_row]
  exact shapeCast_a_1a_apply _ _ (0 : Fin 1) q

/-- The text bias block likewise. -/
theorem text_bias (c : Dev nD) (t : Fin cfg0.N) (q : Fin 64) :
    iblk m c 5 t (ix2 (0 : Fin 1) q) = m ((c : Thread nD τ).loc main_arg6) (ix1 q) := by
  obtain ⟨-, -, -, -, -, -, -, -, -, -, e0, e1, -⟩ := idx_facts t
  have h : iblk m c 5 t (ix2 (0 : Fin 1) q) = V m c main_v63 (ix2 (0 : Fin 1) q) := by
    show V m c main_v63 (((cfg0.win 5).blk t).view.emb (ix2 (0 : Fin 1) q)) = V m c main_v63 (ix2 (0 : Fin 1) q)
    have hA : ((cfg0.win 5).blk t).view.emb (ix2 (0 : Fin 1) q) = ix2 (0 : Fin 1) q := funext fun d => Fin.ext (by
      match d with
      | ⟨0, _⟩ => show win0_5.index t (0 : Fin 2) * 1 + 1 * 0 = 0; omega
      | ⟨1, _⟩ => show win0_5.index t (1 : Fin 2) * 64 + 1 * q.val = q.val; omega)
    rw [hA]
  rw [h, text_bias_row]
  exact shapeCast_a_1a_apply _ _ (0 : Fin 1) q

/-! ## The result arrays -/

/-- The visual projector of the argument arrays. -/
def visualOut (c : Dev nD) : S100000x64.Idx → EReal :=
  Cert.Spec.linear (n := 100000) (k := 1024) (d := 64) (m ((c : Thread nD τ).loc main_arg1)) (m ((c : Thread nD τ).loc main_arg3))
    (m ((c : Thread nD τ).loc main_arg4))

/-- The text projector of the argument arrays. -/
def textOut (c : Dev nD) : S100000x64.Idx → EReal :=
  Cert.Spec.linear (n := 100000) (k := 384) (d := 64) (m ((c : Thread nD τ).loc main_arg2)) (m ((c : Thread nD τ).loc main_arg5))
    (m ((c : Thread nD τ).loc main_arg6))

/-- Point t writes back block t of the visual projector. -/
theorem visual_flushed (c : Dev nD) (t : Fin cfg0.N) :
    (dats m 0 c).flushed 6 t = ((cfg0.win 6).blk t).view.read (Elt Ideal) (visualOut m c) := by
  rw [flushed6]
  unfold out0_6
  rw [View.canon_unit_zero hz]
  simp only [View.ld_unit_zero (S := S2000x1024) hz, View.ld_unit_zero (S := S64x1024) hz, View.ld_unit_zero (S := S1x64) hz]
  obtain ⟨-, -, -, -, -, -, -, -, -, -, -, -, e0, e1, -⟩ := idx_facts t
  have hN : cfg0.N = 50 := N_0
  funext y
  show k0_pay1 (F := Ideal) (iblk m c 0 t) (iblk m c 2 t) (iblk m c 3 t) y = visualOut m c (((cfg0.win 6).blk t).view.emb y)
  have hy0 : (y 0).val < 2000 := (y 0).isLt
  have hy1 : (y 1).val < 64 := (y 1).isLt
  have ht : t.val < 50 := hN ▸ t.isLt
  refine Cert.KernelIdeal.BodyEntry.visual_point _ _ _ _ _ _ y _ ⟨(y 0).val, hy0⟩ ⟨(y 1).val, hy1⟩
    ⟨t.val * 2000 + (y 0).val, by omega⟩ ?_ ?_ (fun j => ?_) (fun a => visual_weights m c t a) (visual_bias m c t _)
  · exact funext fun d => match d with | ⟨0, _⟩ => rfl | ⟨1, _⟩ => rfl
  · exact funext fun d => Fin.ext (by
      match d with
      | ⟨0, _⟩ => show win0_6.index t (0 : Fin 2) * 2000 + 1 * (y 0).val = t.val * 2000 + (y 0).val; omega
      | ⟨1, _⟩ => show win0_6.index t (1 : Fin 2) * 64 + 1 * (y 1).val = (y 1).val; omega)
  · exact visual_rows m c t _ _ rfl rfl

/-- Point t writes back block t of the text projector. -/
theorem text_flushed (c : Dev nD) (t : Fin cfg0.N) :
    (dats m 0 c).flushed 7 t = ((cfg0.win 7).blk t).view.read (Elt Ideal) (textOut m c) := by
  rw [flushed7]
  unfold out0_7
  rw [View.canon_unit_zero hz]
  simp only [View.ld_unit_zero (S := S2000x384) hz, View.ld_unit_zero (S := S64x384) hz, View.ld_unit_zero (S := S1x64) hz]
  obtain ⟨-, -, -, -, -, -, -, -, -, -, -, -, -, -, e0, e1⟩ := idx_facts t
  have hN : cfg0.N = 50 := N_0
  funext y
  show k0_pay2 (F := Ideal) (iblk m c 1 t) (iblk m c 4 t) (iblk m c 5 t) y = textOut m c (((cfg0.win 7).blk t).view.emb y)
  have hy0 : (y 0).val < 2000 := (y 0).isLt
  have hy1 : (y 1).val < 64 := (y 1).isLt
  have ht : t.val < 50 := hN ▸ t.isLt
  refine Cert.KernelIdeal.BodyEntry.text_point _ _ _ _ _ _ y _ ⟨(y 0).val, hy0⟩ ⟨(y 1).val, hy1⟩
    ⟨t.val * 2000 + (y 0).val, by omega⟩ ?_ ?_ (fun j => ?_) (fun a => text_weights m c t a) (text_bias m c t _)
  · exact funext fun d => match d with | ⟨0, _⟩ => rfl | ⟨1, _⟩ => rfl
  · exact funext fun d => Fin.ext (by
      match d with
      | ⟨0, _⟩ => show win0_7.index t (0 : Fin 2) * 2000 + 1 * (y 0).val = t.val * 2000 + (y 0).val; omega
      | ⟨1, _⟩ => show win0_7.index t (1 : Fin 2) * 64 + 1 * (y 1).val = (y 1).val; omega)
  · exact text_rows m c t _ _ rfl rfl

/-- An index of a result array is in point t's block iff each coordinate is in the block's range on its axis. -/
theorem mem_visual_blk (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v64_0).slice (win0_6.rect t)).set ↔ _
  rw [View.set_slice_whole, Rect.mem_set_unit]
  exact Iff.rfl

theorem mem_text_blk (t : Fin cfg0.N) (i : S100000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v64_1).slice (win0_7.rect t)).set ↔ _
  rw [View.set_slice_whole, Rect.mem_set_unit]
  exact Iff.rfl

/-- Row r of a result lies in block r / 2000: the 50 blocks tile the array. -/
theorem visual_cover (i : S100000x64.Idx) : ∃ t : Fin cfg0.N, (cfg0.win 6).flush t = true ∧ i ∈ ((cfg0.win 6).blk t).view.set := by
  have hN : cfg0.N = 50 := N_0
  have hi0 : (i 0).val < 100000 := (i 0).isLt
  have hi1 : (i 1).val < 64 := (i 1).isLt
  let t : Fin cfg0.N := ⟨(i 0).val / 2000, by rw [hN]; omega⟩
  have htv : t.val = (i 0).val / 2000 := rfl
  obtain ⟨-, -, -, -, -, -, -, -, -, -, -, -, e0, e1, -⟩ := idx_facts t
  refine ⟨t, flush0_6 t, ?_⟩
  rw [mem_visual_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

theorem text_cover (i : S100000x64.Idx) : ∃ t : Fin cfg0.N, (cfg0.win 7).flush t = true ∧ i ∈ ((cfg0.win 7).blk t).view.set := by
  have hN : cfg0.N = 50 := N_0
  have hi0 : (i 0).val < 100000 := (i 0).isLt
  have hi1 : (i 1).val < 64 := (i 1).isLt
  let t : Fin cfg0.N := ⟨(i 0).val / 2000, by rw [hN]; omega⟩
  have htv : t.val = (i 0).val / 2000 := rfl
  obtain ⟨-, -, -, -, -, -, -, -, -, -, -, -, -, -, e0, e1⟩ := idx_facts t
  refine ⟨t, flush0_7 t, ?_⟩
  rw [mem_text_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 64 ≤ (i 1).val ∧ (i 1).val < win0_7.index t (1 : Fin 2) * 64 + 64; omega

/-- The visual result array after the run is the visual projector of the argument arrays. -/
theorem visual_final (c : Dev nD) : (dats m 0 c).arrAt 6 cfg0.N = visualOut m c :=
  (dats m 0 c).arrAt_eq_of_cover 6 (visualOut m c) (fun t _ => visual_flushed m c t) visual_cover

/-- The text result array after the run is the text projector of the argument arrays. -/
theorem text_final (c : Dev nD) : (dats m 0 c).arrAt 7 cfg0.N = textOut m c :=
  (dats m 0 c).arrAt_eq_of_cover 7 (textOut m c) (fun t _ => text_flushed m c t) text_cover

end Cert.KernelIdeal.Arrays

end
-- ==== Proof.KernelRun.lean ====
/-
  The kernel's run with every result named.

  After the run the first result's buffer holds what the host operations before the region left there (no window stages
  it, and the region leaves every other buffer as it found it), and the two projector results hold the linear layers of
  the argument arrays; the arguments are unchanged.
-/
import proofs.«139117_j45595372814493_1_alg».proof.Proof.KernelArrays

noncomputable section

namespace Cert.KernelIdeal.Arrays

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- Every weakly fair execution of the kernel's program terminates with the three results at these values. -/
theorem run : θ_run defs (onTc (τ := τ) (main (F := Ideal))) ⟨m, fun _ => 0, ρ⟩ fun r => ∀ c : Dev nD,
      r.2.mem ((c : Thread nD τ).loc main_v61) = V m c main_v61
      ∧ r.2.mem ((c : Thread nD τ).loc main_v64_0) = visualOut m c
      ∧ r.2.mem ((c : Thread nD τ).loc main_v64_1) = textOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).2 main_v61 (Pipeline.mem_restRefs_of main_v61 (by decide) (by decide)),
      (post6 m r h c).trans (visual_final m c),
      (post7 m r h c).trans (text_final m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Arrays

end
-- ==== Proof.RefEntry.lean ====
/-
  The reference's two projectors, read at one entry.

  The reference computes each projector on the host as a dot product of the feature array with the transposed weight
  matrix, plus the bias vector broadcast first to one row and then over all rows. Read at entry (p, q): the dot product is
  the sum over j of `x[p, j]` times the transposed weights at (j, q), which are the weights at (q, j); the twice-broadcast
  bias at (p, q) is `b[q]`. That is the linear layer of the specification, entry by entry.
-/
import proofs.«139117_j45595372814493_1_alg».proof.Proof.Gen.ReferenceIdeal.Read
import proofs.«139117_j45595372814493_1_alg».proof.Proof.Spec
import Idealize.ShloMosaic.Lib.ValueIdx

noncomputable section

namespace Cert.ReferenceIdeal.RefEntry

open Cert.ReferenceIdeal Cert.ReferenceIdeal.Read Idealize.ShloMosaic Idealize.ShloMosaic.ValueIdx

/-- The reference's visual projector is the linear layer of its three arguments. -/
theorem visual_eq (x1 : (⟨S100000x1024, .f32⟩ : BufTy).Contents (Elt Ideal)) (x3 : (⟨S64x1024, .f32⟩ : BufTy).Contents (Elt Ideal)) (x4 : (⟨S64, .f32⟩ : BufTy).Contents (Elt Ideal)) :
    val_main_v66 (F := Ideal) x1 x3 x4 = Cert.Spec.linear (n := 100000) (k := 1024) (d := 64) x1 x3 x4 := by
  funext i
  obtain ⟨p, q, rfl⟩ : ∃ (p : Fin 100000) (q : Fin 64), i = ix2 p q := ⟨i 0, i 1, eq_ix2 i⟩
  rw [val_main_v66_apply, val_main_v63_apply, val_main_v65_apply, val_main_v64_apply, Cert.Spec.linear_apply]
  refine congrArg₂ (· + ·) (Finset.sum_congr rfl fun j _ => ?_) ?_
  · rw [val_main_v62_apply]
    refine congrArg₂ (· * ·) (congrArg x1 ?_) (congrArg x3 ?_)
    · exact funext fun a => match a with | ⟨0, _⟩ => rfl | ⟨1, _⟩ => rfl
    · exact funext fun a => match a with | ⟨0, _⟩ => rfl | ⟨1, _⟩ => rfl
  · exact congrArg x4 (funext fun a => match a with | ⟨0, _⟩ => rfl)

/-- The reference's text projector is the linear layer of its three arguments. -/
theorem text_eq (x2 : (⟨S100000x384, .f32⟩ : BufTy).Contents (Elt Ideal)) (x5 : (⟨S64x384, .f32⟩ : BufTy).Contents (Elt Ideal)) (x6 : (⟨S64, .f32⟩ : BufTy).Contents (Elt Ideal)) :
    val_main_v71 (F := Ideal) x2 x5 x6 = Cert.Spec.linear (n := 100000) (k := 384) (d := 64) x2 x5 x6 := by
  funext i
  obtain ⟨p, q, rfl⟩ : ∃ (p : Fin 100000) (q : Fin 64), i = ix2 p q := ⟨i 0, i 1, eq_ix2 i⟩
  rw [val_main_v71_apply, val_main_v68_apply, val_main_v70_apply, val_main_v69_apply, Cert.Spec.linear_apply]
  refine congrArg₂ (· + ·) (Finset.sum_congr rfl fun j _ => ?_) ?_
  · rw [val_main_v67_apply]
    refine congrArg₂ (· * ·) (congrArg x2 ?_) (congrArg x5 ?_)
    · exact funext fun a => match a with | ⟨0, _⟩ => rfl | ⟨1, _⟩ => rfl
    · exact funext fun a => match a with | ⟨0, _⟩ => rfl | ⟨1, _⟩ => rfl
  · exact congrArg x6 (funext fun a => match a with | ⟨0, _⟩ => rfl)

end Cert.ReferenceIdeal.RefEntry

end
-- ==== Proof.Propagation.lean ====
/-
  The graph-propagation result is one host computation on both sides.

  The first result — three rounds of symmetric-normalised propagation of the item embeddings over the edge list — is
  computed outside the kernel, by the same host operations in both programs: degrees by a scatter-add of ones over the edge
  rows, the normalisation `(deg + 1e-7) ^ (-1/2)` gathered at both ends of every edge and multiplied, then three times a
  gather of rows at the edge columns, a product with the edge weight, and a scatter-add over the edge rows. In the kernel's
  program these operations all run before the region, so the region finds the result already in its buffer and leaves it
  there; in the reference they are the first part of its run. Both are the same term of the item embeddings and the two
  index arrays, so with agreeing arguments the two results are equal: nothing about the arithmetic is opened.
-/
import proofs.«139117_j45595372814493_1_alg».proof.Proof.Gen.KernelIdeal.Frame
import proofs.«139117_j45595372814493_1_alg».proof.Proof.Gen.ReferenceIdeal.Run
import Idealize.ShloMosaic.Lib.StableHlo.Run
import Idealize.ShloMosaic.PureOps.Ideal

noncomputable section

namespace Cert.Propagation

open Idealize.ShloMosaic Idealize.ShloMosaic.TcCoe Idealize.SL.Sem Idealize.ShloMosaic.StableHlo

set_option maxRecDepth 16384 in
set_option maxHeartbeats 4000000 in
/-- What the reference's run leaves in its first result is what the kernel's host operations leave in theirs, when the
    item embeddings and the two edge index arrays agree. -/
theorem reference_eq_kernel
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v61 m' c = Cert.KernelIdeal.Gen.V m c Cert.KernelIdeal.main_v61 := by
  unfold Cert.ReferenceIdeal.Value.res_main_v61
  rw [h0, h7, h8]
  symm
  dsimp only [Cert.KernelIdeal.Gen.V, Cert.KernelIdeal.Gen.hostOps0]
  after_results_simp
  rfl

end Cert.Propagation

end
-- ==== Proof.lean ====
/-
  The kernel and its reference are equal over the extended reals.

  Both programs return three arrays. The first — three rounds of normalised graph propagation of the item embeddings —
  is computed by the same host operations in both, outside the kernel, so the two results are one term of the arguments
  (Proof/Propagation.lean). The other two are linear projectors `x · wᵀ + b` of the visual and the text features. The
  kernel computes them block by block: each of its 50 grid points multiplies 2000 feature rows (rounded to bf16, the
  identity at the exact reading of floats) by the transposed weights into a zero accumulator and adds the bias row
  (Proof/BodyEntry.lean), and the 50 written blocks tile the result (Proof/KernelArrays.lean). The reference computes each
  as one host dot product with the transposed weights plus the broadcast bias (Proof/RefEntry.lean). Entry (p, q) of either
  is the sum over j of `x[p, j] · w[q, j]`, plus `b[q]` (Proof/Spec.lean): the same sum over the same index set, so no
  law of arithmetic is used and the inputs' finiteness is never needed. The idealisation rewrote nothing in the kernel,
  so the kernel's idealised text is its own text read at the exact instance.
-/
import proofs.«139117_j45595372814493_1_alg».proof.Defs
import proofs.«139117_j45595372814493_1_alg».proof.Proof.Gen.Kernel
import proofs.«139117_j45595372814493_1_alg».proof.Proof.Gen.Kernel.Frame
import proofs.«139117_j45595372814493_1_alg».proof.Proof.Gen.KernelIdeal
import proofs.«139117_j45595372814493_1_alg».proof.Proof.Gen.KernelIdeal.Frame
import proofs.«139117_j45595372814493_1_alg».proof.Proof.Gen.KernelIdeal.Value
import proofs.«139117_j45595372814493_1_alg».proof.Proof.Gen.ReferenceIdeal
import proofs.«139117_j45595372814493_1_alg».proof.Proof.Gen.ReferenceIdeal.Run
import proofs.«139117_j45595372814493_1_alg».proof.Proof.Gen.ReferenceIdeal.Read
import proofs.«139117_j45595372814493_1_alg».proof.Proof.Gen.Pre_finite_inputs
import proofs.«139117_j45595372814493_1_alg».proof.Proof.KernelRun
import proofs.«139117_j45595372814493_1_alg».proof.Proof.RefEntry
import proofs.«139117_j45595372814493_1_alg».proof.Proof.Propagation
import Idealize.ShloMosaic.Adequacy
import Idealize.ShloMosaic.Init

noncomputable section

namespace Cert.Proof

open Idealize.ShloMosaic Idealize.SL.Sem

/-- The kernel's program, as printed, runs and leaves its arguments unchanged. -/
theorem frame_kernel : Cert.frame_Kernel := fun m ρ _ => Cert.Kernel.Gen.frame m ρ

/-- So does its idealised text. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealisation rewrote no operation of the kernel. -/
theorem preserves : Cert.preserves_Kernel_KernelIdeal := trivial

/-- From agreeing arguments both programs end with the propagation result at the shared host term and the two projector
    results at the linear layers of the visual and the text features. -/
theorem algebraic : Cert.algebraic_KernelIdeal_ReferenceIdeal := by
  intro m ρ m' ρ' _ hagree
  refine ⟨fun c => Cert.KernelIdeal.Gen.V m c Cert.KernelIdeal.main_v61, fun c => Cert.KernelIdeal.Arrays.visualOut m c,
    fun c => Cert.KernelIdeal.Arrays.textOut m c, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans (Cert.Propagation.reference_eq_kernel m m' c a0 a7 a8), (h c).2.1.trans ?_, (h c).2.2.1.trans ?_, (h c).2.2.2⟩
  · rw [Cert.ReferenceIdeal.Read.val_main_v66_eq, Cert.ReferenceIdeal.RefEntry.visual_eq, a1, a3, a4]
    rfl
  · rw [Cert.ReferenceIdeal.Read.val_main_v71_eq, Cert.ReferenceIdeal.RefEntry.text_eq, a2, a5, a6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
